-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x1024 : Shape := ⟨2, ![4, 1024]⟩
abbrev S4x1x1024x1024 : Shape := ⟨4, ![4, 1, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg3 : FVec F S4x1024 .f32) (main_arg4 : FVec F S4x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_cst_8 : FVec F S_ .f32 := constant S_ .f32 0x00000000#32
  let main_v24 : FVec F S4x1024 .f32 := broadcastInDim S4x1024 ![] bcast_S_S4x1024 main_cst_8
  let main_v25 : IVec S4x1024 1 := cmpf .ogt main_arg3 main_v24
  let main_c_9 : IVec S_ 1 := constantI S_ 1 1#1
  let main_v26 : IVec S_ 1 := (fun x v => Host.reduce IntOp.andi x v reducesTo_S4x1024_S_d0_1 h_S_) main_v25 main_c_9
  let main_v27 : IVec S_ 1 := andi main_v23 main_v26
  main_v27

def fn {F : FTy → Type} [FloatOps F] (main_arg0 : FVec F S4x16x1024x64 .f32) (main_arg1 : FVec F S4x16x1024x64 .f32) (main_arg2 : FVec F S4x16x1024x64 .f32) (main_arg3 : FVec F S4x1024 .f32) (main_arg4 : FVec F S4x1024 .f32) (main_arg5 : IVec S4x1x1024x1024 32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg3 main_arg4 main_v13 main_v16
-- ==== Kernel.lean ====
abbrev S4x16x1024x64 : Shape := ⟨4, ![4, 16, 1024, 64]⟩
abbrev S4x1024 : Shape := ⟨2, ![4, 1024]⟩
abbrev S4x1x1024x1024 : Shape := ⟨4, ![4, 1, 1024, 1024]⟩
abbrev S_ : Shape := ⟨0, ![]⟩
abbrev S4x1x1024 : Shape := ⟨3, ![4, 1, 1024]⟩
abbrev S4x16x1024x1024 : Shape := ⟨4, ![4, 16, 1024, 1024]⟩
abbrev S1x1x1024x64 : Shape := ⟨4, ![1, 1, 1024, 64]⟩
abbrev S1x1x1024 : Shape := ⟨3, ![1, 1, 1024]⟩
abbrev S1x1x1024x1024 : Shape := ⟨4, ![1, 1, 1024, 1024]⟩
abbrev S1024x64 : Shape := ⟨2, ![1024, 64]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x1024, .f32⟩
  | .hbm, ⟨4, _⟩ => ⟨S4x1024, .f32⟩
  | .hbm, ⟨5, _⟩ => ⟨S4x1x1024x1024, .i32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S4x1x1024, .f32⟩
  | .hbm, ⟨16, _⟩ => ⟨S4x16x1024x64, .f32⟩
  | .hbm, ⟨17, _⟩ => ⟨S4x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x1024, .i32⟩
  | .local _ .vmem, ⟨9, _⟩ => ⟨S1x1x1024x1024, .i32⟩
  | .local _ .vmem, ⟨10, _⟩ => ⟨S1x1x1024x64, .f32⟩
  | .local _ .vmem, ⟨11, _⟩ => ⟨S1x1x1024x64, .f32⟩
  | .local _ .vmem, ⟨12, _⟩ => ⟨S1x1x1024x1024, .f32⟩
  | .local _ .vmem, ⟨13, _⟩ => ⟨S1x1x1024x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S4x1024 : S_.BroadcastsInDim S4x1024 (![] : Fin 0 → Fin S4x1024.rank)
  shapeCasts_S4x1024_S4x1x1024 : S4x1024.ShapeCasts S4x1x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1x1024x1024 : S1024x1024.ShapeCasts S1x1x1024x1024
  shapeCasts_S1024x64_S1x1x1024x64 : S1024x64.ShapeCasts S1x1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x1024x64.size a
  hwx0_0 : ∀ i : grid0.Coords, EltTy.bits .f32 = 32 ∨ (Rect.block (s := S4x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S4x16x1024x64.size a
  hwx0_1 : ∀ i : grid0.Coords, EltTy.bits .f32 = 32 ∨ (Rect.block (s := S4x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S4x16x1024x64.size a
  hwx0_2 : ∀ i : grid0.Coords, EltTy.bits .f32 = 32 ∨ (Rect.block (s := S4x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x1024.size a
  hwx0_3 : ∀ i : grid0.Coords, EltTy.bits .f32 = 32 ∨ (Rect.block (s := S4x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x1024.size a ≤ S4x1x1024x1024.size a
  hwx0_4 : ∀ i : grid0.Coords, EltTy.bits .i32 = 32 ∨ (Rect.block (s := S4x1x1024x1024) S1x1x1024x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x64.size a ≤ S4x16x1024x64.size a
  hwx0_5 : ∀ i : grid0.Coords, EltTy.bits .f32 = 32 ∨ (Rect.block (s := S4x16x1024x64) S1x1x1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024x1024.size a ≤ S4x16x1024x1024.size a
  hwx0_6 : ∀ i : grid0.Coords, EltTy.bits .f32 = 32 ∨ (Rect.block (s := S4x16x1024x1024) S1x1x1024x1024.size (cc0_transform_6 i) (hinb0_6 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S1x1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S1x1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x1024 : Shape := ⟨2, ![4, 1024]⟩
abbrev S4x1x1024x1024 : Shape := ⟨4, ![4, 1, 1024, 1024]⟩
abbrev S4x16x1024x1024 : Shape := ⟨4, ![4, 16, 1024, 1024]⟩
abbrev S_ : Shape := ⟨0, ![]⟩
abbrev S4x1x1x1024 : Shape := ⟨4, ![4, 1, 1, 1024]⟩
abbrev S4x16x1024 : Shape := ⟨3, ![4, 16, 1024]⟩
abbrev S4x16x1024x1 : Shape := ⟨4, ![4, 16, 1024, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x1024, .f32⟩
  | .hbm, ⟨4, _⟩ => ⟨S4x1024, .f32⟩
  | .hbm, ⟨5, _⟩ => ⟨S4x1x1024x1024, .i32⟩
  | .hbm, ⟨6, _⟩ => ⟨S4x16x1024x1024, .f32⟩
  | .hbm, ⟨7, _⟩ => ⟨S_, .f32⟩
  | .hbm, ⟨8, _⟩ => ⟨S_, .f32⟩
  | .hbm, ⟨9, _⟩ => ⟨S4x16x1024x1024, .f32⟩
  | .hbm, ⟨10, _⟩ => ⟨S4x16x1024x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1x1x1024, .f32⟩
  | .hbm, ⟨15, _⟩ => ⟨S4x16x1024x1024, .f32⟩
  | .hbm, ⟨16, _⟩ => ⟨S4x16x1024x1024, .f32⟩
  | .hbm, ⟨17, _⟩ => ⟨S_, .i32⟩
  | .hbm, ⟨18, _⟩ => ⟨S4x1x1024x1024, .i32⟩
  | .hbm, ⟨19, _⟩ => ⟨S4x1x1024x1024, .i1⟩
  | .hbm, ⟨20, _⟩ => ⟨S_, .f32⟩
  | .hbm, ⟨21, _⟩ => ⟨S4x16x1024x1024, .i1⟩
  | .hbm, ⟨22, _⟩ => ⟨S4x16x1024x1024, .f32⟩
  | .hbm, ⟨23, _⟩ => ⟨S4x16x1024x1024, .f32⟩
  | .hbm, ⟨24, _⟩ => ⟨S_, .f32⟩
  | .hbm, ⟨25, _⟩ => ⟨S4x16x1024, .f32⟩
  | .hbm, ⟨26, _⟩ => ⟨S_, .f32⟩
  | .hbm, ⟨27, _⟩ => ⟨S4x16x1024, .f32⟩
  | .hbm, ⟨28, _⟩ => ⟨S4x16x1024, .f32⟩
  | .hbm, ⟨29, _⟩ => ⟨S4x16x1024x1, .f32⟩
  | .hbm, ⟨30, _⟩ => ⟨S4x16x1024x1024, .f32⟩
  | .hbm, ⟨31, _⟩ => ⟨S4x16x1024x1024, .f32⟩
  | .hbm, ⟨32, _⟩ => ⟨S4x16x1024x1024, .f32⟩
  | .hbm, ⟨33, _⟩ => ⟨S_, .f32⟩
  | .hbm, ⟨34, _⟩ => ⟨S4x16x1024, .f32⟩
  | .hbm, ⟨35, _⟩ => ⟨S4x16x1024x1, .f32⟩
  | .hbm, ⟨36, _⟩ => ⟨S4x16x1024x1024, .f32⟩
  | .hbm, ⟨37, _⟩ => ⟨S4x16x1024x1024, .f32⟩
  | .hbm, ⟨38, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  bcast_S_S4x1024 : S_.BroadcastsInDim S4x1024 (![] : Fin 0 → Fin S4x1024.rank)
  bcast_S4x1024_S4x1x1x1024_0_3 : S4x1024.BroadcastsInDim S4x1x1x1024 (![0, 3] : Fin 2 → Fin S4x1x1x1024.rank)
  bcast_S4x1x1x1024_S4x16x1024x1024_0_1_2_3 : S4x1x1x1024.BroadcastsInDim S4x16x1024x1024 (![0, 1, 2, 3] : Fin 4 → Fin S4x16x1024x1024.rank)
  bcast_S_S4x1x1024x1024 : S_.BroadcastsInDim S4x1x1024x1024 (![] : Fin 0 → Fin S4x1x1024x1024.rank)
  bcast_S4x1x1024x1024_S4x16x1024x1024_0_1_2_3 : S4x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.Consts.lean ====
/- The float literals the two programs spell, as the extended reals their bit patterns denote.
   One module states them all, so that the modules that use them unfold no pattern themselves. -/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `0.125`, the kernel's folded `1 / sqrt 64`, denotes the real `1/8`. -/
theorem ofBits_eighth : Ideal.ofBits .f32 0x3E000000#32 = ((1 / 8 : ℝ) : EReal) := by
  simp [Ideal.ofBits, Ideal.ieee, -EReal.coe_mul]; norm_num

/-- `64.0`, whose square root the reference divides by, denotes the real `64`. -/
theorem ofBits_64 : Ideal.ofBits .f32 0x42800000#32 = ((64 : ℝ) : EReal) := by
  simp [Ideal.ofBits, Ideal.ieee, -EReal.coe_mul]; norm_num

/-- The pattern of `-inf`, the initial value of both row maxima, denotes the bottom element. -/
theorem ofBits_neg_inf : Ideal.ofBits .f32 0xFF800000#32 = ⊥ := by
  simp [Ideal.ofBits, Ideal.ieee]

/-- The pattern of `+inf`, which the precondition compares magnitudes with, denotes the top element. -/
theorem ofBits_pos_inf : Ideal.ofBits .f32 0x7F800000#32 = ⊤ := by
  simp [Ideal.ofBits, Ideal.ieee]

/-- `+0.0` denotes `0`. -/
theorem ofBits_zero : Ideal.ofBits .f32 0x00000000#32 = 0 := by
  simp [Ideal.ofBits, Ideal.ieee]

/-- The exponent `0.1`, as rounded to f32, denotes the dyadic `13421773 / 2^27`; the proof uses only that it is a
    real number. -/
theorem ofBits_tenth : Ideal.ofBits .f32 0x3DCCCCCD#32 = ((13421773 / 134217728 : ℝ) : EReal) := by
  simp [Ideal.ofBits, Ideal.ieee, -EReal.coe_mul]; norm_num

end Cert.Consts

end
-- ==== Proof.Softmax.lean ====
/- The mathematics both programs compute, stated once over the extended reals, and the one law that joins their
   two spellings of it.

   For one batch entry `b` and one head `h` write `q, k, v : [1024, 64]` for the head's query, key and value rows, `p : [1024]`
   for the batch entry's propensities and `M : [1024, 1024]` for its mask. With logits `L i j` the attention is
     S i j   = NEG where M i j = 0, else L i j                (the masked logits; NEG is the literal -1e9)
     mx i    = max over j of S i j, from -inf                  (the row maximum)
     e i j   = exp (S i j - mx i)
     P i j   = e i j / (sum over j' of e i j')                 (the attention weights: the second result)
     O i d   = sum over j of P i j * v j d                     (the first result).
   The kernel takes `L i j = (sum_d q i d * k j d) * f j` with the factor `f j = 0.125 * (1 / p j ^ 0.1)` computed once on the host;
   the reference takes `L i j = ((sum_d q i d * k j d) / sqrt 64) / p j ^ 0.1`. Where `p j` is a positive real, `p j ^ 0.1` is a
   nonzero real `r`, the square root of 64 is 8, and both are `s * (1/8) * (1/r)`: multiplication of extended reals is
   associative and commutative, so no finiteness of `s` is needed (`scale_law`, `refLogit_eq_kerLogit`). At `p j = 0` the two
   differ (`s * (0.125 * (1/0))` against `(s/8)/0` at `s = 0`), which is why the precondition asks `p > 0`. -/
import Idealize.ShloMosaic.PureOps.Ideal
import Idealize.ShloMosaic.Lib.ValueIdx
import proofs.«106895_j66872640799274_2_alg».proof.Proof.Consts

noncomputable section

open scoped BigOperators

namespace Cert.Attn

open Idealize.ShloMosaic Idealize.ShloMosaic.ValueIdx

/-! ## One head -/

/-- The masked logits: the literal `-1e9` where the mask word is zero, the logit elsewhere. -/
def masked (L : Fin 1024 → Fin 1024 → EReal) (M : Fin 1024 → Fin 1024 → BitVec 32) (i j : Fin 1024) : EReal :=
  Scalar.select (IntOp.cmpi .eq (M i j) 0#32) (Ideal.ofBits .f32 0xCE6E6B28#32) (L i j)

/-- The maximum of row `i`, folded from the pattern of `-inf`. -/
def rowMax (S : Fin 1024 → Fin 1024 → EReal) (i : Fin 1024) : EReal :=
  (Finset.univ : Finset (Fin 1024)).fold max (Ideal.ofBits .f32 0xFF800000#32) (S i)

/-- The shifted exponentials. -/
def expo (S : Fin 1024 → Fin 1024 → EReal) (i j : Fin 1024) : EReal := Ideal.exp (S i j - rowMax S i)

/-- Their row sums. -/
def denom (S : Fin 1024 → Fin 1024 → EReal) (i : Fin 1024) : EReal := ∑ j : Fin 1024, expo S i j

/-- The attention weights. -/
def prob (S : Fin 1024 → Fin 1024 → EReal) (i j : Fin 1024) : EReal := Ideal.div (expo S i j) (denom S i)

/-- The weighted sum of the value rows. -/
def outp (S : Fin 1024 → Fin 1024 → EReal) (v : Fin 1024 → Fin 64 → EReal) (i : Fin 1024) (d : Fin 64) : EReal :=
  ∑ j : Fin 1024, prob S i j * v j d

/-! ## The two spellings of the logits -/

/-- The dot product of query row `i` and key row `j`. -/
def dot (q k : Fin 1024 → Fin 64 → EReal) (i j : Fin 1024) : EReal := ∑ d : Fin 64, q i d * k j d

/-- `p ^ 0.1`, the exponent being the f32 literal. -/
def powTenth (p : EReal) : EReal := Ideal.pow p (Ideal.ofBits .f32 0x3DCCCCCD#32)

/-- The kernel's per-column factor `0.125 * (1.0 / p j ^ 0.1)`. -/
def kerFactor (p : Fin 1024 → EReal) (j : Fin 1024) : EReal :=
  Ideal.ofBits .f32 0x3E000000#32 * Ideal.div (Ideal.ofBits .f32 0x3F800000#32) (powTenth (p j))

/-- The kernel's logits: the dot product times the column's factor. -/
def kerLogit (q k : Fin 1024 → Fin 64 → EReal) (f : Fin 1024 → EReal) (i j : Fin 1024) : EReal := dot q k i j * f j

/-- The reference's logits: the dot product divided by `sqrt 64`, then by `p j ^ 0.1`. -/
def refLogit (q k : Fin 1024 → Fin 64 → EReal) (p : Fin 1024 → EReal) (i j : Fin 1024) : EReal :=
  Ideal.div (Ideal.div (dot q k i j) (Ideal.sqrt (Ideal.ofBits .f32 0x42800000#32))) (powTenth (p j))

/-- The square root of the literal `64.0` is the real `8`. -/
theorem sqrt_64 : Ideal.sqrt (Ideal.ofBits .f32 0x42800000#32) = ((8 : ℝ) : EReal) := by
  rw [Consts.ofBits_64, Ideal.sqrt_coe, if_neg (by norm_num)]
  congr 1
  rw [show (64 : ℝ) = 8 ^ 2 by norm_num, Real.sqrt_sq (by norm_num)]

/-- THE LAW: for a nonzero real `r`, `s * (0.125 * (1.0 / r)) = (s / sqrt 64) / r` at every extended real `s`. Both are
    `s * (1/8) * (1/r)`; only associativity of the product is used. -/
theorem scale_law (s : EReal) (r : ℝ) (hr : r ≠ 0) :
    s * (Ideal.ofBits .f32 0x3E000000#32 * Ideal.div (Ideal.ofBits .f32 0x3F800000#32) (r : EReal))
      = Ideal.div (Ideal.div s (Ideal.sqrt (Ideal.ofBits .f32 0x42800000#32))) (r : EReal) := by
  rw [sqrt_64, Consts.ofBits_eighth, Consts.ofBits_one, Ideal.div_coe hr, Ideal.div_coe hr,
    Ideal.div_coe (by norm_num : (8 : ℝ) ≠ 0), one_mul, mul_assoc]

/-- A positive real to the power `0.1` is a nonzero real. -/
theorem powTenth_real (p : EReal) (h0 : 0 < p) (ht : p < ⊤) : ∃ r : ℝ, r ≠ 0 ∧ powTenth p = (r : EReal) := by
  unfold powTenth
  induction p using EReal.rec with
  | bot => exact absurd h0 (not_lt.mpr bot_le)
  | top => exact absurd ht (lt_irrefl _)
  | coe x =>
    have hx : 0 < x := by exact_mod_cast h0
    rw [Consts.ofBits_tenth, Ideal.pow_coe_coe]
    exact ⟨_, (Real.rpow_pos_of_pos hx _).ne', rfl⟩

/-- So, on positive real propensities, the reference's logits are the kernel's. -/
theorem refLogit_eq_kerLogit (q k : Fin 1024 → Fin 64 → EReal) (p : Fin 1024 → EReal) (hp : ∀ j, 0 < p j ∧ p j < ⊤) :
    refLogit q k p = kerLogit q k (kerFactor p) := by
  funext i j
  obtain ⟨r, hr, e⟩ := powTenth_real (p j) (hp j).1 (hp j).2
  unfold refLogit kerLogit kerFactor
  rw [e]
  exact (scale_law _ r hr).symm

/-! ## The whole arrays

The arguments are `Q, K, V : [4, 16, 1024, 64]`, the propensities `T : [4, 1024]` and the mask `M : [4, 1, 1024, 1024]`; head
`(b, h)` reads rows `(b, h, ·, ·)` of the first three, row `b` of the propensities and plane `(b, 0, ·, ·)` of the mask. -/

/-- Head `(b, h)`'s rows of a `[4, 16, 1024, 64]` array. -/
def headRows (A : (⟨4, ![4, 16, 1024, 64]⟩ : Shape).Idx → EReal) (b : Fin 4) (h : Fin 16) : Fin 1024 → Fin 64 → EReal :=
  fun i d => A (ix4 b h i d)

/-- Batch entry `b`'s propensities. -/
def propRow (T : (⟨2, ![4, 1024]⟩ : Shape).Idx → EReal) (b : Fin 4) : Fin 1024 → EReal := fun j => T (ix2 b j)

/-- Batch entry `b`'s mask plane. -/
def maskPlane (M : (⟨4, ![4, 1, 1024, 1024]⟩ : Shape).Idx → BitVec 32) (b : Fin 4) : Fin 1024 → Fin 1024 → BitVec 32 :=
  fun i j => M (ix4 b (0 : Fin 1) i j)

/-- Head `(b, h)`'s masked logits, in the kernel's spelling. -/
def headScores (Q K : (⟨4, ![4, 16, 1024, 64]⟩ : Shape).Idx → EReal) (T : (⟨2, ![4, 1024]⟩ : Shape).Idx → EReal)
    (M : (⟨4, ![4, 1, 1024, 1024]⟩ : Shape).Idx → BitVec 32) (b : Fin 4) (h : Fin 16) : Fin 1024 → Fin 1024 → EReal :=
  masked (kerLogit (headRows Q b h) (headRows K b h) (kerFactor (propRow T b))) (maskPlane M b)

/-- The attention weights, `[4, 16, 1024, 1024]`. -/
def weights (Q K : (⟨4, ![4, 16, 1024, 64]⟩ : Shape).Idx → EReal) (T : (⟨2, ![4, 1024]⟩ : Shape).Idx → EReal)
    (M : (⟨4, ![4, 1, 1024, 1024]⟩ : Shape).Idx → BitVec 32) : (⟨4, ![4, 16, 1024, 1024]⟩ : Shape).Idx → EReal :=
  fun y => prob (headScores Q K T M ⟨(y 0).val, (y 0).isLt⟩ ⟨(y 1).val, (y 1).isLt⟩) ⟨(y 2).val, (y 2).isLt⟩ ⟨(y 3).val, (y 3).isLt⟩

/-- The attention output, `[4, 16, 1024, 64]`. -/
def output (Q K V : (⟨4, ![4, 16, 1024, 64]⟩ : Shape).Idx → EReal) (T : (⟨2, ![4, 1024]⟩ : Shape).Idx → EReal)
    (M : (⟨4, ![4, 1, 1024, 1024]⟩ : Shape).Idx → BitVec 32) : (⟨4, ![4, 16, 1024, 64]⟩ : Shape).Idx → EReal :=
  fun y => outp (headScores Q K T M ⟨(y 0).val, (y 0).isLt⟩ ⟨(y 1).val, (y 1).isLt⟩) (headRows V ⟨(y 0).val, (y 0).isLt⟩ ⟨(y 1).val, (y 1).isLt⟩)
    ⟨(y 2).val, (y 2).isLt⟩ ⟨(y 3).val, (y 3).isLt⟩

theorem weights_ix (Q K : (⟨4, ![4, 16, 1024, 64]⟩ : Shape).Idx → EReal) (T : (⟨2, ![4, 1024]⟩ : Shape).Idx → EReal)
    (M : (⟨4, ![4, 1, 1024, 1024]⟩ : Shape).Idx → BitVec 32) (b : Fin 4) (h : Fin 16) (i j : Fin 1024) :
    weights Q K T M (ix4 b h i j) = prob (headScores Q K T M b h) i j := rfl

theorem output_ix (Q K V : (⟨4, ![4, 16, 1024, 64]⟩ : Shape).Idx → EReal) (T : (⟨2, ![4, 1024]⟩ : Shape).Idx → EReal)
    (M : (⟨4, ![4, 1, 1024, 1024]⟩ : Shape).Idx → BitVec 32) (b : Fin 4) (h : Fin 16) (i : Fin 1024) (d : Fin 64) :
    output Q K V T M (ix4 b h i d) = outp (headScores Q K T M b h) (headRows V b h) i d := rfl

end Cert.Attn

end
-- ==== Proof.Layout.lean ====
/- The re-layings the kernel body performs between a staged block and the matrices it computes on, each read at
   an index by coordinates: a block `[1, 1, A, B]` is the matrix `[A, B]` (the two leading unit axes carry nothing), a row
   `[1, B]` broadcast to `[A, B]` reads its column, and a column `[A]`, kept as `[A, 1]` and broadcast to `[A, B]`, reads its
   row. Every cast is by equal row-major position. -/
import Idealize.ShloMosaic.Lib.Pipeline.Value
import Idealize.ShloMosaic.Lib.ValueIdx

noncomputable section

namespace Cert.Layout

open Idealize.ShloMosaic Idealize.ShloMosaic.ValueIdx

variable {α : Type}

/-- A `[1, 1, 1024, 64]` block as the matrix `[1024, 64]`. -/
theorem cast_block64 (x : (⟨4, ![1, 1, 1024, 64]⟩ : Shape).Idx → α)
    (h : (⟨4, ![1, 1, 1024, 64]⟩ : Shape).ShapeCasts ⟨2, ![1024, 64]⟩) (i : Fin 1024) (d : Fin 64) :
    shapeCast ⟨2, ![1024, 64]⟩ x h (ix2 i d) = x (ix4 (0 : Fin 1) (0 : Fin 1) i d) :=
  shapeCast_apply x h (ix2 i d) (ix4 (0 : Fin 1) (0 : Fin 1) i d) (by
    rw [Shape.rowMajor_val_two, Shape.rowMajor_val_four]
    show ((0 * 1 + 0) * 1024 + i.val) * 64 + d.val = i.val * 64 + d.val
    omega)

/-- The matrix `[1024, 64]` as a `[1, 1, 1024, 64]` block. -/
theorem cast_matrix64 (x : (⟨2, ![1024, 64]⟩ : Shape).Idx → α)
    (h : (⟨2, ![1024, 64]⟩ : Shape).ShapeCasts ⟨4, ![1, 1, 1024, 64]⟩) (a b : Fin 1) (i : Fin 1024) (d : Fin 64) :
    shapeCast ⟨4, ![1, 1, 1024, 64]⟩ x h (ix4 a b i d) = x (ix2 i d) :=
  shapeCast_apply x h (ix4 a b i d) (ix2 i d) (by
    rw [Shape.rowMajor_val_two, Shape.rowMajor_val_four]
    show i.val * 64 + d.val = ((a.val * 1 + b.val) * 1024 + i.val) * 64 + d.val
    have := a.isLt; have := b.isLt
    omega)

/-- A `[1, 1, 1024, 1024]` block as the matrix `[1024, 1024]`. -/
theorem cast_block1024 (x : (⟨4, ![1, 1, 1024, 1024]⟩ : Shape).Idx → α)
    (h : (⟨4, ![1, 1, 1024, 1024]⟩ : Shape).ShapeCasts ⟨2, ![1024, 1024]⟩) (i j : Fin 1024) :
    shapeCast ⟨2, ![1024, 1024]⟩ x h (ix2 i j) = x (ix4 (0 : Fin 1) (0 : Fin 1) i j) :=
  shapeCast_apply x h (ix2 i j) (ix4 (0 : Fin 1) (0 : Fin 1) i j) (by
    rw [Shape.rowMajor_val_two, Shape.rowMajor_val_four]
    show ((0 * 1 + 0) * 1024 + i.val) * 1024 + j.val = i.val * 1024 + j.val
    omega)

/-- A `[1, 1, 1024]` block as the row `[1, 1024]`. -/
theorem cast_row (x : (⟨3, ![1, 1, 1024]⟩ : Shape).Idx → α)
    (h : (⟨3, ![1, 1, 1024]⟩ : Shape).ShapeCasts ⟨2, ![1, 1024]⟩) (a : Fin 1) (j : Fin 1024) :
    shapeCast ⟨2, ![1, 1024]⟩ x h (ix2 a j) = x (ix3 (0 : Fin 1) (0 : Fin 1) j) :=
  shapeCast_apply x h (ix2 a j) (ix3 (0 : Fin 1) (0 : Fin 1) j) (by
    rw [Shape.rowMajor_val_two, Shape.rowMajor_val_three]
    show (0 * 1 + 0) * 1024 + j.val = a.val * 1024 + j.val
    have := a.isLt
    omega)

/-- A row `[1, 1024]` broadcast down `1024` rows reads its column. -/
theorem bcast_row (x : (⟨2, ![1, 1024]⟩ : Shape).Idx → α)
    (h : (⟨2, ![1, 1024]⟩ : Shape).Broadcasts ⟨2, ![1024, 1024]⟩) (i j : Fin 1024) :
    broadcastTo ⟨2, ![1024, 1024]⟩ x h (ix2 i j) = x (ix2 (0 : Fin 1) j) :=
  broadcastTo_apply x h (ix2 i j) (ix2 (0 : Fin 1) j) (fun a => by
    match a with
    | ⟨0, _⟩ => show (0 : Nat) = if (1 : Nat) = 1 then 0 else i.val; rw [if_pos rfl]
    | ⟨1, _⟩ => show j.val = if (1024 : Nat) = 1 then 0 else j.val; rw [if_neg (by decide)])

/-- A vector `[1024]` kept as the column `[1024, 1]`. -/
theorem cast_column (x : (⟨1, ![1024]⟩ : Shape).Idx → α)
    (h : (⟨1, ![1024]⟩ : Shape).ShapeCasts ⟨2, ![1024, 1]⟩) (i : Fin 1024) (a : Fin 1) :
    shapeCast ⟨2, ![1024, 1]⟩ x h (ix2 i a) = x (ix1 i) :=
  shapeCast_apply x h (ix2 i a) (ix1 i) (by
    rw [Shape.rowMajor_val_two, Shape.rowMajor_val_one]
    show i.val = i.val * 1 + a.val
    have := a.isLt
    omega)

/-- A column `[1024, 1]` broadcast across `1024` columns reads its row. -/
theorem bcast_column (x : (⟨2, ![1024, 1]⟩ : Shape).Idx → α)
    (h : (⟨2, ![1024, 1]⟩ : Shape).Broadcasts ⟨2, ![1024, 1024]⟩) (i j : Fin 1024) :
    broadcastTo ⟨2, ![1024, 1024]⟩ x h (ix2 i j) = x (ix2 i (0 : Fin 1)) :=
  broadcastTo_apply x h (ix2 i j) (ix2 i (0 : Fin 1)) (fun a => by
    match a with
    | ⟨0, _⟩ => show i.val = if (1024 : Nat) = 1 then 0 else i.val; rw [if_neg (by decide)]
    | ⟨1, _⟩ => show (0 : Nat) = if (1 : Nat) = 1 then 0 else j.val; rw [if_pos rfl])

end Cert.Layout

end
-- ==== Proof.KernelPayload.lean ====
/- What the kernel body computes from one grid point's blocks, read index by index at the extended reals.

   The body's arithmetic is the generated payloads `k0_pay3` (the attention weights `[1024, 1024]`), `k0_pay2` (the value
   block as a matrix) and `k0_pay1` (the weights times the values, re-laid as a block). Here the same terms are cut into
   named stages — the masked logits, the row maximum, the shifted exponentials, their row sums, the quotient — each read at
   an index by coordinates, so that `k0_pay3` at `(i, j)` is the specification's `prob` of the block's rows and `k0_pay1` at
   `(0, 0, i, d)` its `outp`. The two matrix products into a zero accumulator are plain sums over the contracted
   coordinate, and the two row reductions are a fold of `max` and a sum over the row's 1024 columns. -/
import proofs.«106895_j66872640799274_2_alg».proof.Proof.Gen.KernelIdeal.Skeleton
import proofs.«106895_j66872640799274_2_alg».proof.Proof.Softmax
import proofs.«106895_j66872640799274_2_alg».proof.Proof.Layout
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Attn Cert.Layout

/-! ## The blocks as plain functions of coordinates -/

/-- A `[1, 1, 1024, 64]` block's rows. -/
def rows64 (x : Vec Ideal S1x1x1024x64 .f32) : Fin 1024 → Fin 64 → EReal := fun i d => x (ix4 (0 : Fin 1) (0 : Fin 1) i d)
/-- A `[1, 1, 1024]` block's entries. -/
def row (x : Vec Ideal S1x1x1024 .f32) : Fin 1024 → EReal := fun j => x (ix3 (0 : Fin 1) (0 : Fin 1) j)
/-- A `[1, 1, 1024, 1024]` mask block's words. -/
def plane (x : Vec Ideal S1x1x1024x1024 .i32) : Fin 1024 → Fin 1024 → BitVec 32 := fun i j => x (ix4 (0 : Fin 1) (0 : Fin 1) i j)

/-! ## The two matrix products -/

theorem qk_lhs0 (y : S1024x1024.Idx) (q : dot_S1024x64_S1024x64_S1024x1024_1_1_0_0_n_n.contr.Idx) :
    (dot_S1024x64_S1024x64_S1024x1024_1_1_0_0_n_n.lhsIdx y q 0).val = (y 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem qk_lhs1 (y : S1024x1024.Idx) (q : dot_S1024x64_S1024x64_S1024x1024_1_1_0_0_n_n.contr.Idx) :
    (dot_S1024x64_S1024x64_S1024x1024_1_1_0_0_n_n.lhsIdx y q 1).val = (q ⟨0, by decide⟩).val :=
  dot_S1024x64_S1024x64_S1024x1024_1_1_0_0_n_n.lhsIdx_val_of_single rfl y q
theorem qk_rhs0 (y : S1024x1024.Idx) (q : dot_S1024x64_S1024x64_S1024x1024_1_1_0_0_n_n.contr.Idx) :
    (dot_S1024x64_S1024x64_S1024x1024_1_1_0_0_n_n.rhsIdx y q 0).val = (y 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem qk_rhs1 (y : S1024x1024.Idx) (q : dot_S1024x64_S1024x64_S1024x1024_1_1_0_0_n_n.contr.Idx) :
    (dot_S1024x64_S1024x64_S1024x1024_1_1_0_0_n_n.rhsIdx y q 1).val = (q ⟨0, by decide⟩).val :=
  dot_S1024x64_S1024x64_S1024x1024_1_1_0_0_n_n.rhsIdx_val_of_single rfl y q

/-- Query rows times key rows, contracted over the 64 features, into a zero accumulator: entry `(i, j)` is the dot product
    of row `i` of the first and row `j` of the second. -/
theorem qk_apply (a b : FVec Ideal S1024x64 .f32) (i j : Fin 1024) :
    matmul dot_S1024x64_S1024x64_S1024x1024_1_1_0_0_n_n (some .fp32) a b (constant S1024x1024 .f32 0x00000000#32) (ix2 i j)
      = ∑ d : Fin 64, a (ix2 i d) * b (ix2 j d) := by
  simp only [matmul]
  rw [Ideal.matmul_constant_zero_apply, ← Equiv.sum_comp (contrEquiv1 dot_S1024x64_S1024x64_S1024x1024_1_1_0_0_n_n 64 rfl rfl).symm]
  refine Finset.sum_congr rfl fun d _ => ?_
  have hk := contrEquiv1_symm_val dot_S1024x64_S1024x64_S1024x1024_1_1_0_0_n_n 64 rfl rfl d
  have el : dot_S1024x64_S1024x64_S1024x1024_1_1_0_0_n_n.lhsIdx (ix2 i j) ((contrEquiv1 dot_S1024x64_S1024x64_S1024x1024_1_1_0_0_n_n 64 rfl rfl).symm d) = ix2 i d := funext fun a => Fin.ext (by
    match a with
    | ⟨0, _⟩ => exact qk_lhs0 _ _
    | ⟨1, _⟩ => exact (qk_lhs1 _ _).trans hk)
  have er : dot_S1024x64_S1024x64_S1024x1024_1_1_0_0_n_n.rhsIdx (ix2 i j) ((contrEquiv1 dot_S1024x64_S1024x64_S1024x1024_1_1_0_0_n_n 64 rfl rfl).symm d) = ix2 j d := funext fun a => Fin.ext (by
    match a with
    | ⟨0, _⟩ => exact qk_rhs0 _ _
    | ⟨1, _⟩ => exact (qk_rhs1 _ _).trans hk)
  rw [el, er]

theorem pv_lhs0 (y : S1024x64.Idx) (q : dot_S1024x1024_S1024x64_S1024x64_1_0_0_1_n_n.contr.Idx) :
    (dot_S1024x1024_S1024x64_S1024x64_1_0_0_1_n_n.lhsIdx y q 0).val = (y 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem pv_lhs1 (y : S1024x64.Idx) (q : dot_S1024x1024_S1024x64_S1024x64_1_0_0_1_n_n.contr.Idx) :
    (dot_S1024x1024_S1024x64_S1024x64_1_0_0_1_n_n.lhsIdx y q 1).val = (q ⟨0, by decide⟩).val :=
  dot_S1024x1024_S1024x64_S1024x64_1_0_0_1_n_n.lhsIdx_val_of_single rfl y q
theorem pv_rhs0 (y : S1024x64.Idx) (q : dot_S1024x1024_S1024x64_S1024x64_1_0_0_1_n_n.contr.Idx) :
    (dot_S1024x1024_S1024x64_S1024x64_1_0_0_1_n_n.rhsIdx y q 0).val = (q ⟨0, by decide⟩).val :=
  dot_S1024x1024_S1024x64_S1024x64_1_0_0_1_n_n.rhsIdx_val_of_single rfl y q
theorem pv_rhs1 (y : S1024x64.Idx) (q : dot_S1024x1024_S1024x64_S1024x64_1_0_0_1_n_n.contr.Idx) :
    (dot_S1024x1024_S1024x64_S1024x64_1_0_0_1_n_n.rhsIdx y q 1).val = (y 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weights times the value rows, contracted over the 1024 columns, into a zero accumulator. -/
theorem pv_apply (a : FVec Ideal S1024x1024 .f32) (b : FVec Ideal S1024x64 .f32) (i : Fin 1024) (d : Fin 64) :
    matmul dot_S1024x1024_S1024x64_S1024x64_1_0_0_1_n_n (some .fp32) a b (constant S1024x64 .f32 0x00000000#32) (ix2 i d)
      = ∑ j : Fin 1024, a (ix2 i j) * b (ix2 j d) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 i d) ((contrEquiv1 dot_S1024x1024_S1024x64_S1024x64_1_0_0_1_n_n 1024 rfl rfl).symm k) = ix2 i k := funext fun a => Fin.ext (by
    match a with
    | ⟨0, _⟩ => exact pv_lhs0 _ _
    | ⟨1, _⟩ => exact (pv_lhs1 _ _).trans hk)
  have er : dot_S1024x1024_S1024x64_S1024x64_1_0_0_1_n_n.rhsIdx (ix2 i d) ((contrEquiv1 dot_S1024x1024_S1024x64_S1024x64_1_0_0_1_n_n 1024 rfl rfl).symm k) = ix2 k d := funext fun a => Fin.ext (by
    match a with
    | ⟨0, _⟩ => exact (pv_rhs0 _ _).trans hk
    | ⟨1, _⟩ => exact pv_rhs1 _ _)
  rw [el, er]

/-! ## The body's stages -/

/-- The masked logits as the body computes them from the two matrices, the factor row and the mask matrix. -/
def scoresV (a b : FVec Ideal S1024x64 .f32) (f : FVec Ideal S1x1024 .f32) (mk : IVec S1024x1024 32) : FVec Ideal S1024x1024 .f32 :=
  select (cmpi .eq mk (broadcast S1024x1024 0#32)) (broadcast S1024x1024 (Scalar.ofBits (F := Ideal) .f32 0xCE6E6B28#32))
    (mulf (matmul dot_S1024x64_S1024x64_S1024x1024_1_1_0_0_n_n (some .fp32) a b (constant S1024x1024 .f32 0x00000000#32))
      (broadcastTo S1024x1024 f broadcasts_S1x1024_S1024x1024))

/-- The row maxima. -/
def mxV (s : FVec Ideal S1024x1024 .f32) : FVec Ideal S1024 .f32 :=
  multiReduction .maximumf [1] S1024 s 0xFF800000#32 reduces_S1024x1024_S1024 (.inl rfl) rfl

/-- The shifted exponentials. -/
def exV (s : FVec Ideal S1024x1024 .f32) : FVec Ideal S1024x1024 .f32 :=
  exp (subf s (broadcastTo S1024x1024 (shapeCast S1024x1 (mxV s) shapeCasts_S1024_S1024x1) broadcasts_S1024x1_S1024x1024))

/-- Their row sums. -/
def dnV (s : FVec Ideal S1024x1024 .f32) : FVec Ideal S1024 .f32 :=
  multiReduction .add [1] S1024 (exV s) 0x00000000#32 reduces_S1024x1024_S1024 (.inl rfl) rfl

/-- The weights. -/
def softV (s : FVec Ideal S1024x1024 .f32) : FVec Ideal S1024x1024 .f32 :=
  divf (exV s) (broadcastTo S1024x1024 (shapeCast S1024x1 (dnV s) shapeCasts_S1024_S1024x1) broadcasts_S1024x1_S1024x1024)

/-- The generated payload of the weights is these stages of the re-laid blocks. -/
theorem pay3_eq (P0 P1 : Vec Ideal S1x1x1024x64 .f32) (P2 : Vec Ideal S1x1x1024 .f32) (P3 : Vec Ideal S1x1x1024x1024 .i32) :
    k0_pay3 (F := Ideal) P0 P1 P2 P3
      = softV (scoresV (shapeCast S1024x64 P0 shapeCasts_S1x1x1024x64_S1024x64) (shapeCast S1024x64 P1 shapeCasts_S1x1x1024x64_S1024x64)
          (shapeCast S1x1024 P2 shapeCasts_S1x1x1024_S1x1024) (shapeCast S1024x1024 P3 shapeCasts_S1x1x1024x1024_S1024x1024)) := rfl

/-- The masked logits at `(i, j)`. -/
theorem scoresV_apply (a b : FVec Ideal S1024x64 .f32) (f : FVec Ideal S1x1024 .f32) (mk : IVec S1024x1024 32) (i j : Fin 1024) :
    scoresV a b f mk (ix2 i j)
      = masked (kerLogit (fun i d => a (ix2 i d)) (fun j d => b (ix2 j d)) (fun j => f (ix2 (0 : Fin 1) j))) (fun i j => mk (ix2 i j)) i j := by
  unfold scoresV masked kerLogit dot
  rw [select_apply, mulf_apply, qk_apply, bcast_row]
  rfl

/-- The row maximum at `i`: the fold of `max` over the row's columns. -/
theorem mxV_apply (s : FVec Ideal S1024x1024 .f32) (i : Fin 1024) :
    mxV s (ix1 i) = rowMax (fun i j => s (ix2 i j)) i := by
  unfold mxV rowMax
  refine (Ideal.multiReduction_maximumf_single s 0xFF800000#32 reduces_S1024x1024_S1024 (.inl rfl) rfl (ix1 i)).trans ?_
  have hrow : (s ∘ reduces_S1024x1024_S1024.lift (ix1 i) : Fin 1024 → EReal) = fun k => s (ix2 i k) := funext fun k => by
    show s (reduces_S1024x1024_S1024.lift (ix1 i) k) = s (ix2 i k)
    refine congrArg s (funext fun a => Fin.ext ?_)
    match a with
    | ⟨0, _⟩ => rfl
    | ⟨1, _⟩ => rfl
  exact congrArg (fun f : Fin 1024 → EReal => (Finset.univ : Finset (Fin 1024)).fold max (Ideal.ofBits .f32 0xFF800000#32) f) hrow

/-- The shifted exponential at `(i, j)`. -/
theorem exV_apply (s : FVec Ideal S1024x1024 .f32) (i j : Fin 1024) :
    exV s (ix2 i j) = expo (fun i j => s (ix2 i j)) i j := by
  unfold exV expo
  show Ideal.exp (s (ix2 i j) - broadcastTo S1024x1024 (shapeCast S1024x1 (mxV s) shapeCasts_S1024_S1024x1) broadcasts_S1024x1_S1024x1024 (ix2 i j)) = _
  rw [bcast_column, cast_column, mxV_apply]

/-- The row sum at `i`. -/
theorem dnV_apply (s : FVec Ideal S1024x1024 .f32) (i : Fin 1024) :
    dnV s (ix1 i) = denom (fun i j => s (ix2 i j)) i := by
  unfold dnV denom
  refine (Ideal.multiReduction_add_single (exV s) 0x00000000#32 reduces_S1024x1024_S1024 (.inl rfl) rfl (ix1 i)).trans ?_
  show ∑ k : Fin 1024, exV s (reduces_S1024x1024_S1024.lift (ix1 i) k) = _
  refine Finset.sum_congr rfl fun k _ => ?_
  rw [← exV_apply]
  refine congrArg (exV s) (funext fun a => Fin.ext ?_)
  match a with
  | ⟨0, _⟩ => rfl
  | ⟨1, _⟩ => rfl

/-- The weight at `(i, j)`. -/
theorem softV_apply (s : FVec Ideal S1024x1024 .f32) (i j : Fin 1024) :
    softV s (ix2 i j) = prob (fun i j => s (ix2 i j)) i j := by
  unfold softV prob
  show Ideal.div (exV s (ix2 i j)) (broadcastTo S1024x1024 (shapeCast S1024x1 (dnV s) shapeCasts_S1024_S1024x1) broadcasts_S1024x1_S1024x1024 (ix2 i j)) = _
  rw [bcast_column, cast_column, dnV_apply, exV_apply]

/-- THE WEIGHTS' PAYLOAD at `(i, j)` is the specification's weight of the blocks' rows. -/
theorem pay3_apply (P0 P1 : Vec Ideal S1x1x1024x64 .f32) (P2 : Vec Ideal S1x1x1024 .f32) (P3 : Vec Ideal S1x1x1024x1024 .i32) (i j : Fin 1024) :
    k0_pay3 (F := Ideal) P0 P1 P2 P3 (ix2 i j)
      = prob (masked (kerLogit (rows64 P0) (rows64 P1) (row P2)) (plane P3)) i j := by
  rw [pay3_eq, softV_apply]
  refine congrArg (fun S => prob S i j) (funext fun i' => funext fun j' => ?_)
  rw [scoresV_apply]
  have hA : (fun (i : Fin 1024) (d : Fin 64) => shapeCast S1024x64 P0 shapeCasts_S1x1x1024x64_S1024x64 (ix2 i d)) = rows64 P0 :=
    funext fun i => funext fun d => cast_block64 P0 _ i d
  have hB : (fun (i : Fin 1024) (d : Fin 64) => shapeCast S1024x64 P1 shapeCasts_S1x1x1024x64_S1024x64 (ix2 i d)) = rows64 P1 :=
    funext fun i => funext fun d => cast_block64 P1 _ i d
  have hC : (fun (j : Fin 1024) => shapeCast S1x1024 P2 shapeCasts_S1x1x1024_S1x1024 (ix2 (0 : Fin 1) j)) = row P2 :=
    funext fun j => cast_row P2 _ 0 j
  have hD : (fun (i j : Fin 1024) => shapeCast S1024x1024 P3 shapeCasts_S1x1x1024x1024_S1024x1024 (ix2 i j)) = plane P3 :=
    funext fun i => funext fun j => cast_block1024 P3 _ i j
  rw [hA, hB, hC, hD]

/-- THE OUTPUT'S PAYLOAD at `(0, 0, i, d)`: the weights times the value block's rows. -/
theorem pay1_apply (P2v : Vec Ideal S1x1x1024x64 .f32) (W : FVec Ideal S1024x1024 .f32) (a b : Fin 1) (i : Fin 1024) (d : Fin 64) :
    k0_pay1 (F := Ideal) (k0_pay2 P2v) W (ix4 a b i d) = ∑ j : Fin 1024, W (ix2 i j) * rows64 P2v j d := by
  unfold k0_pay1 k0_pay2 rows64
  show shapeCast S1x1x1024x64 (matmul dot_S1024x1024_S1024x64_S1024x64_1_0_0_1_n_n (some .fp32) W (shapeCast S1024x64 P2v shapeCasts_S1x1x1024x64_S1024x64) (constant S1024x64 .f32 0x00000000#32)) shapeCasts_S1024x64_S1x1x1024x64 (ix4 a b i d) = _
  rw [cast_matrix64, pv_apply]
  refine Finset.sum_congr rfl fun j _ => ?_
  rw [cast_block64]

end Cert.KernelIdeal.Pay

end
-- ==== Proof.KernelValue.lean ====
/- The kernel's two result arrays after its run are the specification's `output` and `weights` of the argument arrays.

   The grid has 64 points; point `t` is head `(b, h) = (t / 16, t % 16)`. Its query, key and value blocks are rows `(b, h, ·, ·)` of
   the three arguments, its mask block is plane `(b, 0, ·, ·)` of the mask, and its factor block is row `(b, 0, ·)` of an array
   the host computes before the launch: `0.125 * (1.0 / T ^ 0.1)` of the propensities, re-laid as `[4, 1, 1024]`. From those
   blocks the body leaves in the two output blocks the specification's `outp` and `prob` (the payload lemmas), point `t` writes
   them back to blocks `(b, h, ·, ·)` of the results, every result index lies in exactly such a block, and so each result array
   ends as one function of the arguments. -/
import proofs.«106895_j66872640799274_2_alg».proof.Proof.Gen.KernelIdeal.Value
import proofs.«106895_j66872640799274_2_alg».proof.Proof.KernelPayload
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.KernelIdeal.Pay Cert.Attn Cert.Layout
open Idealize.ShloMosaic.StableHlo

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## A grid point's head -/

/-- The batch entry of point `t`. -/
def bOf (t : Fin cfg0.N) : Fin 4 := ⟨t.val / 16, by have h : t.val < 64 := lt_of_lt_of_eq t.isLt N_0; omega⟩
/-- The head of point `t`. -/
def hOf (t : Fin cfg0.N) : Fin 16 := ⟨t.val % 16, Nat.mod_lt _ (by decide)⟩

/-! ## The printed index maps over the grid -/

theorem idx_w0 : ∀ t : Fin cfg0.N, win0_0.index t (0 : Fin 4) = t.val / 16 ∧ win0_0.index t (1 : Fin 4) = t.val % 16
    ∧ win0_0.index t (2 : Fin 4) = 0 ∧ win0_0.index t (3 : Fin 4) = 0 :=
  (by decide +kernel : ∀ t : Fin grid0.N, _)
theorem idx_w1 : ∀ t : Fin cfg0.N, win0_1.index t (0 : Fin 4) = t.val / 16 ∧ win0_1.index t (1 : Fin 4) = t.val % 16
    ∧ win0_1.index t (2 : Fin 4) = 0 ∧ win0_1.index t (3 : Fin 4) = 0 :=
  (by decide +kernel : ∀ t : Fin grid0.N, _)
theorem idx_w2 : ∀ t : Fin cfg0.N, win0_2.index t (0 : Fin 4) = t.val / 16 ∧ win0_2.index t (1 : Fin 4) = t.val % 16
    ∧ win0_2.index t (2 : Fin 4) = 0 ∧ win0_2.index t (3 : Fin 4) = 0 :=
  (by decide +kernel : ∀ t : Fin grid0.N, _)
theorem idx_w3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)
theorem idx_w4 : ∀ t : Fin cfg0.N, win0_4.index t (0 : Fin 4) = t.val / 16 ∧ win0_4.index t (1 : Fin 4) = 0
    ∧ win0_4.index t (2 : Fin 4) = 0 ∧ win0_4.index t (3 : Fin 4) = 0 :=
  (by decide +kernel : ∀ t : Fin grid0.N, _)
theorem idx_w5 : ∀ t : Fin cfg0.N, win0_5.index t (0 : Fin 4) = t.val / 16 ∧ win0_5.index t (1 : Fin 4) = t.val % 16
    ∧ win0_5.index t (2 : Fin 4) = 0 ∧ win0_5.index t (3 : Fin 4) = 0 :=
  (by decide +kernel : ∀ t : Fin grid0.N, _)
theorem idx_w6 : ∀ t : Fin cfg0.N, win0_6.index t (0 : Fin 4) = t.val / 16 ∧ win0_6.index t (1 : Fin 4) = t.val % 16
    ∧ win0_6.index t (2 : Fin 4) = 0 ∧ win0_6.index t (3 : Fin 4) = 0 :=
  (by decide +kernel : ∀ t : Fin grid0.N, _)

/-! ## The factor array the host leaves for the launch -/

/-- Entry `(b, 0, j)` of the factor array is `0.125 * (1.0 / T (b, j) ^ 0.1)`. -/
theorem factor_apply (c : Dev nD) (b : Fin 4) (j : Fin 1024) :
    (V m c main_v6 : S4x1x1024.Idx → EReal) (ix3 b (0 : Fin 1) j)
      = kerFactor (propRow (m ((c : Thread nD τ).loc main_arg3)) b) j := by
  have e : (V m c main_v6 : S4x1x1024.Idx → EReal)
      = shapeCast S4x1x1024 (mulf (broadcastInDim S4x1024 ![] bcast_S_S4x1024 (constant (F := Ideal) S_ .f32 0x3E000000#32))
          (Host.divf (F := Ideal) (broadcastInDim S4x1024 ![] bcast_S_S4x1024 (constant (F := Ideal) S_ .f32 0x3F800000#32))
            (Host.powf (F := Ideal) (m ((c : Thread nD τ).loc main_arg3))
              (broadcastInDim S4x1024 ![] bcast_S_S4x1024 (constant (F := Ideal) S_ .f32 0x3DCCCCCD#32)))))
          shapeCasts_S4x1024_S4x1x1024 := by
    dsimp only [Gen.V, Gen.hostOps0]; after_results; rfl
  rw [e]
  refine (shapeCast_apply _ shapeCasts_S4x1024_S4x1x1024 (ix3 b (0 : Fin 1) j) (ix2 b j) (by
    rw [Shape.rowMajor_val_two, Shape.rowMajor_val_three]
    show b.val * 1024 + j.val = (b.val * 1 + 0) * 1024 + j.val
    omega)).trans ?_
  have hb : ∀ (w : BitVec 32), broadcastInDim S4x1024 ![] bcast_S_S4x1024 (constant (F := Ideal) S_ .f32 w) (ix2 b j) = Ideal.ofBits .f32 w :=
    fun w => broadcastInDim_apply _ bcast_S_S4x1024 (constant (F := Ideal) S_ .f32 w) (ix2 b j) ix0 (fun a => a.elim0)
  show broadcastInDim S4x1024 ![] bcast_S_S4x1024 (constant (F := Ideal) S_ .f32 0x3E000000#32) (ix2 b j)
      * Ideal.div (broadcastInDim S4x1024 ![] bcast_S_S4x1024 (constant (F := Ideal) S_ .f32 0x3F800000#32) (ix2 b j))
          (Ideal.pow (m ((c : Thread nD τ).loc main_arg3) (ix2 b j))
            (broadcastInDim S4x1024 ![] bcast_S_S4x1024 (constant (F := Ideal) S_ .f32 0x3DCCCCCD#32) (ix2 b j))) = _
  rw [hb, hb, hb]
  rfl

/-! ## The input blocks of a point as rows of the arrays -/

theorem rows_q (c : Dev nD) (t : Fin cfg0.N) :
    rows64 (iblk m c 0 t) = headRows (m ((c : Thread nD τ).loc main_arg0)) (bOf t) (hOf t) := by
  obtain ⟨e0, e1, e2, e3⟩ := idx_w0 t
  funext i d
  unfold rows64 headRows iblk
  rw [View.read_apply]
  show V m c main_arg0 _ = m (c.tc.loc main_arg0) _
  refine (congrFun (V_main_arg0 m c) _).trans (congrArg _ (funext fun a => Fin.ext ?_))
  match a with
  | ⟨0, _⟩ => show win0_0.index t (0 : Fin 4) * 1 + 1 * 0 = t.val / 16; rw [e0]; omega
  | ⟨1, _⟩ => show win0_0.index t (1 : Fin 4) * 1 + 1 * 0 = t.val % 16; rw [e1]; omega
  | ⟨2, _⟩ => show win0_0.index t (2 : Fin 4) * 1024 + 1 * i.val = i.val; rw [e2]; omega
  | ⟨3, _⟩ => show win0_0.index t (3 : Fin 4) * 64 + 1 * d.val = d.val; rw [e3]; omega

theorem rows_k (c : Dev nD) (t : Fin cfg0.N) :
    rows64 (iblk m c 1 t) = headRows (m ((c : Thread nD τ).loc main_arg1)) (bOf t) (hOf t) := by
  obtain ⟨e0, e1, e2, e3⟩ := idx_w1 t
  funext i d
  unfold rows64 headRows iblk
  rw [View.read_apply]
  show V m c main_arg1 _ = m (c.tc.loc main_arg1) _
  refine (congrFun (V_main_arg1 m c) _).trans (congrArg _ (funext fun a => Fin.ext ?_))
  match a with
  | ⟨0, _⟩ => show win0_1.index t (0 : Fin 4) * 1 + 1 * 0 = t.val / 16; rw [e0]; omega
  | ⟨1, _⟩ => show win0_1.index t (1 : Fin 4) * 1 + 1 * 0 = t.val % 16; rw [e1]; omega
  | ⟨2, _⟩ => show win0_1.index t (2 : Fin 4) * 1024 + 1 * i.val = i.val; rw [e2]; omega
  | ⟨3, _⟩ => show win0_1.index t (3 : Fin 4) * 64 + 1 * d.val = d.val; rw [e3]; omega

theorem rows_v (c : Dev nD) (t : Fin cfg0.N) :
    rows64 (iblk m c 2 t) = headRows (m ((c : Thread nD τ).loc main_arg2)) (bOf t) (hOf t) := by
  obtain ⟨e0, e1, e2, e3⟩ := idx_w2 t
  funext i d
  unfold rows64 headRows iblk
  rw [View.read_apply]
  show V m c main_arg2 _ = m (c.tc.loc main_arg2) _
  refine (congrFun (V_main_arg2 m c) _).trans (congrArg _ (funext fun a => Fin.ext ?_))
  match a with
  | ⟨0, _⟩ => show win0_2.index t (0 : Fin 4) * 1 + 1 * 0 = t.val / 16; rw [e0]; omega
  | ⟨1, _⟩ => show win0_2.index t (1 : Fin 4) * 1 + 1 * 0 = t.val % 16; rw [e1]; omega
  | ⟨2, _⟩ => show win0_2.index t (2 : Fin 4) * 1024 + 1 * i.val = i.val; rw [e2]; omega
  | ⟨3, _⟩ => show win0_2.index t (3 : Fin 4) * 64 + 1 * d.val = d.val; rw [e3]; omega

theorem row_f (c : Dev nD) (t : Fin cfg0.N) :
    row (iblk m c 3 t) = kerFactor (propRow (m ((c : Thread nD τ).loc main_arg3)) (bOf t)) := by
  obtain ⟨e0, e1, e2⟩ := idx_w3 t
  funext j
  rw [← factor_apply m c (bOf t) j]
  unfold row iblk
  rw [View.read_apply]
  show V m c main_v6 _ = V m c main_v6 _
  refine congrArg _ (funext fun a => Fin.ext ?_)
  match a with
  | ⟨0, _⟩ => show win0_3.index t (0 : Fin 3) * 1 + 1 * 0 = t.val / 16; rw [e0]; omega
  | ⟨1, _⟩ => show win0_3.index t (1 : Fin 3) * 1 + 1 * 0 = 0; rw [e1]
  | ⟨2, _⟩ => show win0_3.index t (2 : Fin 3) * 1024 + 1 * j.val = j.val; rw [e2]; omega

theorem plane_m (c : Dev nD) (t : Fin cfg0.N) :
    plane (iblk m c 4 t) = maskPlane (m ((c : Thread nD τ).loc main_arg5)) (bOf t) := by
  obtain ⟨e0, e1, e2, e3⟩ := idx_w4 t
  funext i j
  unfold plane maskPlane iblk
  rw [View.read_apply]
  show V m c main_arg5 _ = m (c.tc.loc main_arg5) _
  refine (congrFun (V_main_arg5 m c) _).trans (congrArg _ (funext fun a => Fin.ext ?_))
  match a with
  | ⟨0, _⟩ => show win0_4.index t (0 : Fin 4) * 1 + 1 * 0 = t.val / 16; rw [e0]; omega
  | ⟨1, _⟩ => show win0_4.index t (1 : Fin 4) * 1 + 1 * 0 = 0; rw [e1]
  | ⟨2, _⟩ => show win0_4.index t (2 : Fin 4) * 1024 + 1 * i.val = i.val; rw [e2]; omega
  | ⟨3, _⟩ => show win0_4.index t (3 : Fin 4) * 1024 + 1 * j.val = j.val; rw [e3]; omega

/-! ## What the body leaves in the two output blocks -/

/-- The weights' block: the specification's `prob` of the input blocks' rows. -/
theorem out6_apply (x0 x1 x2 : Vec Ideal S1x1x1024x64 .f32) (x3 : Vec Ideal S1x1x1024 .f32) (x4 : Vec Ideal S1x1x1024x1024 .i32)
    (y : S1x1x1024x1024.Idx) :
    out0_6 x0 x1 x2 x3 x4 y
      = prob (masked (kerLogit (rows64 x0) (rows64 x1) (row x3)) (plane x4)) ⟨(y 2).val, (y 2).isLt⟩ ⟨(y 3).val, (y 3).isLt⟩ := by
  unfold out0_6
  rw [canon6_eq]
  show k0_pay3 (View.ld x0 r0_0) (View.ld x1 r0_0) (View.ld x3 r0_1) (View.ld x4 r0_2) (ix6_0 y) = _
  simp only [View.ld_unit_zero (S := S1x1x1024x64) hz4, View.ld_unit_zero (S := S1x1x1024) hz3, View.ld_unit_zero (S := S1x1x1024x1024) hz4]
  have e : ix6_0 y = ix2 (⟨(y 2).val, (y 2).isLt⟩ : Fin 1024) (⟨(y 3).val, (y 3).isLt⟩ : Fin 1024) :=
    funext fun a => Fin.ext (by match a with | ⟨0, _⟩ => rfl | ⟨1, _⟩ => rfl)
  rw [e, pay3_apply]

/-- The output's block: the specification's `outp` of the input blocks' rows. -/
theorem out5_apply (x0 x1 x2 : Vec Ideal S1x1x1024x64 .f32) (x3 : Vec Ideal S1x1x1024 .f32) (x4 : Vec Ideal S1x1x1024x1024 .i32)
    (y : S1x1x1024x64.Idx) :
    out0_5 x0 x1 x2 x3 x4 y
      = outp (masked (kerLogit (rows64 x0) (rows64 x1) (row x3)) (plane x4)) (rows64 x2) ⟨(y 2).val, (y 2).isLt⟩ ⟨(y 3).val, (y 3).isLt⟩ := by
  unfold out0_5
  rw [View.canon_unit_zero hz4]
  simp only [View.ld_unit_zero (S := S1x1x1024x64) hz4, View.ld_unit_zero (S := S1x1x1024) hz3, View.ld_unit_zero (S := S1x1x1024x1024) hz4]
  obtain ⟨a, b, i, d, rfl⟩ : ∃ (a b : Fin 1) (i : Fin 1024) (d : Fin 64), y = ix4 a b i d := ⟨y 0, y 1, y 2, y 3, eq_ix4 y⟩
  rw [pay1_apply]
  unfold outp
  refine Finset.sum_congr rfl fun j _ => ?_
  rw [pay3_apply]

/-! ## The result arrays -/

/-- The weights as a function of the argument arrays. -/
abbrev W (c : Dev nD) : S4x16x1024x1024.Idx → EReal :=
  weights (m ((c : Thread nD τ).loc main_arg0)) (m ((c : Thread nD τ).loc main_arg1)) (m ((c : Thread nD τ).loc main_arg3))
    (m ((c : Thread nD τ).loc main_arg5))

/-- The output as a function of the argument arrays. -/
abbrev O (c : Dev nD) : S4x16x1024x64.Idx → EReal :=
  output (m ((c : Thread nD τ).loc main_arg0)) (m ((c : Thread nD τ).loc main_arg1)) (m ((c : Thread nD τ).loc main_arg2))
    (m ((c : Thread nD τ).loc main_arg3)) (m ((c : Thread nD τ).loc main_arg5))

/-- Point `t` writes back block `(b, h)` of the weights. -/
theorem flushed6_eq (c : Dev nD) (t : Fin cfg0.N) :
    (dats m 0 c).flushed 6 t = ((cfg0.win 6).blk t).view.read (Elt Ideal) (W m c) := by
  obtain ⟨e0, e1, e2, e3⟩ := idx_w6 t
  rw [flushed6]
  funext y
  show out0_6 (iblk m c 0 t) (iblk m c 1 t) (iblk m c 2 t) (iblk m c 3 t) (iblk m c 4 t) y = W m c (((cfg0.win 6).blk t).view.emb y)
  refine (out6_apply (iblk m c 0 t) (iblk m c 1 t) (iblk m c 2 t) (iblk m c 3 t) (iblk m c 4 t) y).trans ?_
  rw [rows_q, rows_k, row_f, plane_m]
  have hemb : ((cfg0.win 6).blk t).view.emb y = ix4 (bOf t) (hOf t) (⟨(y 2).val, (y 2).isLt⟩ : Fin 1024) (⟨(y 3).val, (y 3).isLt⟩ : Fin 1024) :=
    funext fun a => Fin.ext (by
      have h0 : (y 0).val < 1 := (y 0).isLt
      have h1 : (y 1).val < 1 := (y 1).isLt
      match a with
      | ⟨0, _⟩ => show win0_6.index t (0 : Fin 4) * 1 + 1 * (y 0).val = t.val / 16; rw [e0]; omega
      | ⟨1, _⟩ => show win0_6.index t (1 : Fin 4) * 1 + 1 * (y 1).val = t.val % 16; rw [e1]; omega
      | ⟨2, _⟩ => show win0_6.index t (2 : Fin 4) * 1024 + 1 * (y 2).val = (y 2).val; rw [e2]; omega
      | ⟨3, _⟩ => show win0_6.index t (3 : Fin 4) * 1024 + 1 * (y 3).val = (y 3).val; rw [e3]; omega)
  rw [hemb]
  rfl

/-- Point `t` writes back block `(b, h)` of the output. -/
theorem flushed5_eq (c : Dev nD) (t : Fin cfg0.N) :
    (dats m 0 c).flushed 5 t = ((cfg0.win 5).blk t).view.read (Elt Ideal) (O m c) := by
  obtain ⟨e0, e1, e2, e3⟩ := idx_w5 t
  rw [flushed5]
  funext y
  show out0_5 (iblk m c 0 t) (iblk m c 1 t) (iblk m c 2 t) (iblk m c 3 t) (iblk m c 4 t) y = O m c (((cfg0.win 5).blk t).view.emb y)
  refine (out5_apply (iblk m c 0 t) (iblk m c 1 t) (iblk m c 2 t) (iblk m c 3 t) (iblk m c 4 t) y).trans ?_
  rw [rows_q, rows_k, rows_v, row_f, plane_m]
  have hemb : ((cfg0.win 5).blk t).view.emb y = ix4 (bOf t) (hOf t) (⟨(y 2).val, (y 2).isLt⟩ : Fin 1024) (⟨(y 3).val, (y 3).isLt⟩ : Fin 64) :=
    funext fun a => Fin.ext (by
      have h0 : (y 0).val < 1 := (y 0).isLt
      have h1 : (y 1).val < 1 := (y 1).isLt
      match a with
      | ⟨0, _⟩ => show win0_5.index t (0 : Fin 4) * 1 + 1 * (y 0).val = t.val / 16; rw [e0]; omega
      | ⟨1, _⟩ => show win0_5.index t (1 : Fin 4) * 1 + 1 * (y 1).val = t.val % 16; rw [e1]; omega
      | ⟨2, _⟩ => show win0_5.index t (2 : Fin 4) * 1024 + 1 * (y 2).val = (y 2).val; rw [e2]; omega
      | ⟨3, _⟩ => show win0_5.index t (3 : Fin 4) * 64 + 1 * (y 3).val = (y 3).val; rw [e3]; omega)
  rw [hemb]
  rfl

/-- An index of the weights is in point `t`'s block iff each coordinate is in the block's range on its axis. -/
theorem mem_blk6 (t : Fin cfg0.N) (i : S4x16x1024x1024.Idx) :
    i ∈ ((cfg0.win 6).blk t).view.set ↔ ∀ a : Fin 4, win0_6.index t a * S1x1x1024x1024.size a ≤ (i a).val
      ∧ (i a).val < win0_6.index t a * S1x1x1024x1024.size a + S1x1x1024x1024.size a := by
  show i ∈ ((View.whole main_v7_1).slice (win0_6.rect t)).set ↔ _
  rw [View.set_slice_whole, Rect.mem_set_unit]
  exact Iff.rfl

theorem mem_blk5 (t : Fin cfg0.N) (i : S4x16x1024x64.Idx) :
    i ∈ ((cfg0.win 5).blk t).view.set ↔ ∀ a : Fin 4, win0_5.index t a * S1x1x1024x64.size a ≤ (i a).val
      ∧ (i a).val < win0_5.index t a * S1x1x1024x64.size a + S1x1x1024x64.size a := by
  show i ∈ ((View.whole main_v7_0).slice (win0_5.rect t)).set ↔ _
  rw [View.set_slice_whole, Rect.mem_set_unit]
  exact Iff.rfl

/-- Every index of the weights lies in the block of the point `16 b + h`. -/
theorem cover6 (i : S4x16x1024x1024.Idx) :
    ∃ t : Fin cfg0.N, (cfg0.win 6).flush t = true ∧ i ∈ ((cfg0.win 6).blk t).view.set := by
  have h0 : (i 0).val < 4 := (i 0).isLt
  have h1 : (i 1).val < 16 := (i 1).isLt
  have h2 : (i 2).val < 1024 := (i 2).isLt
  have h3 : (i 3).val < 1024 := (i 3).isLt
  have hN : cfg0.N = 64 := N_0
  obtain ⟨t, ht⟩ : ∃ t : Fin cfg0.N, t.val = (i 0).val * 16 + (i 1).val := ⟨⟨(i 0).val * 16 + (i 1).val, by rw [hN]; omega⟩, rfl⟩
  obtain ⟨e0, e1, e2, e3⟩ := idx_w6 t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; rw [e0]; omega
  | ⟨1, _⟩ => show win0_6.index t (1 : Fin 4) * 1 ≤ (i 1).val ∧ (i 1).val < win0_6.index t (1 : Fin 4) * 1 + 1; rw [e1]; omega
  | ⟨2, _⟩ => show win0_6.index t (2 : Fin 4) * 1024 ≤ (i 2).val ∧ (i 2).val < win0_6.index t (2 : Fin 4) * 1024 + 1024; rw [e2]; omega
  | ⟨3, _⟩ => show win0_6.index t (3 : Fin 4) * 1024 ≤ (i 3).val ∧ (i 3).val < win0_6.index t (3 : Fin 4) * 1024 + 1024; rw [e3]; omega

/-- Every index of the output lies in the block of the point `16 b + h`. -/
theorem cover5 (i : S4x16x1024x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 1024 := (i 2).isLt
  have h3 : (i 3).val < 64 := (i 3).isLt
  have hN : cfg0.N = 64 := N_0
  obtain ⟨t, ht⟩ : ∃ t : Fin cfg0.N, t.val = (i 0).val * 16 + (i 1).val := ⟨⟨(i 0).val * 16 + (i 1).val, by rw [hN]; omega⟩, rfl⟩
  obtain ⟨e0, e1, e2, e3⟩ := idx_w5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 1 ≤ (i 1).val ∧ (i 1).val < win0_5.index t (1 : Fin 4) * 1 + 1; rw [e1]; omega
  | ⟨2, _⟩ => show win0_5.index t (2 : Fin 4) * 1024 ≤ (i 2).val ∧ (i 2).val < win0_5.index t (2 : Fin 4) * 1024 + 1024; rw [e2]; omega
  | ⟨3, _⟩ => show win0_5.index t (3 : Fin 4) * 64 ≤ (i 3).val ∧ (i 3).val < win0_5.index t (3 : Fin 4) * 64 + 64; rw [e3]; omega

/-- The weights array after the run. -/
theorem final6 (c : Dev nD) : (dats m 0 c).arrAt 6 cfg0.N = W m c :=
  (dats m 0 c).arrAt_eq_of_cover 6 (W m c) (fun t _ => flushed6_eq m c t) cover6

/-- The output array after the run. -/
theorem final5 (c : Dev nD) : (dats m 0 c).arrAt 5 cfg0.N = O m c :=
  (dats m 0 c).arrAt_eq_of_cover 5 (O m c) (fun t _ => flushed5_eq m c t) cover5

/-- THE KERNEL'S RUN, READ: every weakly fair execution ends with the two results at the specification's `output` and
    `weights` of the arguments, the arguments unchanged. -/
theorem run : θ_run defs (onTc (τ := τ) (main (F := Ideal))) ⟨m, fun _ => 0, ρ⟩ fun r => ∀ c : Dev nD,
      r.2.mem ((c : Thread nD τ).loc main_v7_0) = O m c
      ∧ r.2.mem ((c : Thread nD τ).loc main_v7_1) = W m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c), (h c).2.2⟩)
    (Cert.KernelIdeal.Value.run_blocks m ρ)

end Cert.KernelIdeal.Hand

end
-- ==== Proof.RefValue.lean ====
/- What the reference computes, read index by index at the extended reals: its two results are the specification's
   weights and output of the reference's own spelling of the logits.

   The generated read-at-an-index lemmas give every stage but one from its operands; composed at an index `(b, h, i, j)`
   named by coordinates they say: the masked logits are `masked (refLogit …)` of head `(b, h)`'s rows; the row maximum (the
   one stage read here by hand: a fold of `max` over the last axis, then a `max` with `-inf`, which changes nothing) is
   `rowMax`; the exponentials, their sums (the initial value `0` added to a sum changes nothing) and the quotient are
   `expo`, `denom`, `prob`; the final product contracts the 1024 columns against the value rows: `outp`. -/
import proofs.«106895_j66872640799274_2_alg».proof.Proof.Gen.ReferenceIdeal.Read
import proofs.«106895_j66872640799274_2_alg».proof.Proof.Softmax
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 x1 x2 : S4x16x1024x64.Idx → EReal) (x3 : S4x1024.Idx → EReal) (x5 : S4x1x1024x1024.Idx → BitVec 32)

/-- Head `(b, h)`'s masked logits in the reference's spelling. -/
def refScores (b : Fin 4) (h : Fin 16) : Fin 1024 → Fin 1024 → EReal :=
  masked (refLogit (headRows x0 b h) (headRows x1 b h) (propRow x3 b)) (maskPlane x5 b)

/-- The last axis of `[4, 16, 1024, 1024]` reduces to `[4, 16, 1024]`. -/
theorem red3 : S4x16x1024x1024.Reduces [3] S4x16x1024 := by decide

/-! ## The masked logits -/

theorem v11_apply (b : Fin 4) (h : Fin 16) (i j : Fin 1024) :
    val_main_v11 (F := Ideal) x0 x1 x3 x5 (ix4 b h i j) = refScores x0 x1 x3 x5 b h i j := by
  have e1 : idx_main_call0_v0 (ix4 b h i j) = ix4 b (0 : Fin 1) i j :=
    funext fun a => Fin.ext (by match a with | ⟨0, _⟩ => rfl | ⟨1, _⟩ => rfl | ⟨2, _⟩ => rfl | ⟨3, _⟩ => rfl)
  have e2 : ∀ k : Fin 64, lidx_main_v0 (ix4 b h i j) k = ix4 b h i k := fun k =>
    funext fun a => Fin.ext (by match a with | ⟨0, _⟩ => rfl | ⟨1, _⟩ => rfl | ⟨2, _⟩ => rfl | ⟨3, _⟩ => rfl)
  have e3 : ∀ k : Fin 64, ridx_main_v0 (ix4 b h i j) k = ix4 b h j k := fun k =>
    funext fun a => Fin.ext (by match a with | ⟨0, _⟩ => rfl | ⟨1, _⟩ => rfl | ⟨2, _⟩ => rfl | ⟨3, _⟩ => rfl)
  have e4 : idx_main_v6 (idx_main_v7 (ix4 b h i j)) = ix2 b j :=
    funext fun a => Fin.ext (by match a with | ⟨0, _⟩ => rfl | ⟨1, _⟩ => rfl)
  rw [val_main_v11_apply, val_main_call0_v0_apply, val_main_v10_apply, val_main_v9_apply, val_main_c_apply,
    val_main_call0_v1_apply, val_main_cst_1_apply, val_main_v8_apply, val_main_v3_apply, val_main_v0_apply,
    val_main_v2_apply, val_main_v1_apply, val_main_cst_apply, val_main_v7_apply, val_main_v6_apply, val_main_v5_apply,
    val_main_v4_apply, val_main_cst_0_apply, e1, e4]
  simp only [e2, e3]
  rfl

/-! ## The row maximum -/

theorem v12_apply (b : Fin 4) (h : Fin 16) (i : Fin 1024) :
    val_main_v12 (F := Ideal) x0 x1 x3 x5 (ix3 b h i) = rowMax (refScores x0 x1 x3 x5 b h) i := by
  have hrow : ∀ k : Fin 1024, val_main_v11 (F := Ideal) x0 x1 x3 x5 (red3.lift (ix3 b h i) k) = refScores x0 x1 x3 x5 b h i k := fun k => by
    rw [← v11_apply]
    refine congrArg (val_main_v11 (F := Ideal) x0 x1 x3 x5) (funext fun a => Fin.ext ?_)
    match a with
    | ⟨0, _⟩ => rfl
    | ⟨1, _⟩ => rfl
    | ⟨2, _⟩ => rfl
    | ⟨3, _⟩ => rfl
  unfold val_main_v12 rowMax
  refine (Host.reduce_eq_fold_single (FloatOps.maximumf (F := Ideal) (φ := .f32)) (val_main_v11 (F := Ideal) x0 x1 x3 x5)
    (val_main_cst_2 (F := Ideal)) reducesTo_S4x16x1024x1024_S4x16x1024_d3 red3 h_S_ (ix3 b h i)).trans ?_
  have hf : (val_main_v11 (F := Ideal) x0 x1 x3 x5 ∘ red3.lift (ix3 b h i) : Fin 1024 → EReal) = refScores x0 x1 x3 x5 b h i :=
    funext hrow
  exact congrArg (fun f : Fin 1024 → EReal => (Finset.univ : Finset (Fin 1024)).fold max (Ideal.ofBits .f32 0xFF800000#32) f) hf

/-- The row maximum as the subtraction reads it: the `max` with `-inf` changes nothing. -/
theorem v16_apply (b : Fin 4) (h : Fin 16) (i j : Fin 1024) :
    val_main_v16 (F := Ideal) x0 x1 x3 x5 (ix4 b h i j) = rowMax (refScores x0 x1 x3 x5 b h) i := by
  have e : idx_main_v15 (idx_main_v16 (ix4 b h i j)) = ix3 b h i :=
    funext fun a => Fin.ext (by match a with | ⟨0, _⟩ => rfl | ⟨1, _⟩ => rfl | ⟨2, _⟩ => rfl)
  rw [val_main_v16_apply, val_main_v15_apply, val_main_v14_apply, val_main_v13_apply, val_main_cst_3_apply, e, v12_apply]
  show max (Ideal.ofBits .f32 0xFF800000#32) _ = _
  rw [Consts.ofBits_neg_inf]
  exact max_eq_right bot_le

/-! ## The exponentials, their sums, the weights -/

theorem v18_apply (b : Fin 4) (h : Fin 16) (i j : Fin 1024) :
    val_main_v18 (F := Ideal) x0 x1 x3 x5 (ix4 b h i j) = expo (refScores x0 x1 x3 x5 b h) i j := by
  rw [val_main_v18_apply, val_main_v17_apply, v11_apply, v16_apply]
  rfl

theorem v19_apply (b : Fin 4) (h : Fin 16) (i : Fin 1024) :
    val_main_v19 (F := Ideal) x0 x1 x3 x5 (ix3 b h i) = denom (refScores x0 x1 x3 x5 b h) i := by
  have e : ∀ k : Fin 1024, idx_main_v19 (ix3 b h i) k = ix4 b h i k := fun k =>
    funext fun a => Fin.ext (by match a with | ⟨0, _⟩ => rfl | ⟨1, _⟩ => rfl | ⟨2, _⟩ => rfl | ⟨3, _⟩ => rfl)
  rw [val_main_v19_apply, val_main_cst_4_apply]
  show Ideal.ofBits .f32 0x00000000#32 + _ = _
  rw [Consts.ofBits_zero, zero_add]
  unfold denom
  refine Finset.sum_congr rfl fun k _ => ?_
  rw [e, v18_apply]

theorem v22_apply (b : Fin 4) (h : Fin 16) (i j : Fin 1024) :
    val_main_v22 (F := Ideal) x0 x1 x3 x5 (ix4 b h i j) = prob (refScores x0 x1 x3 x5 b h) i j := by
  have e : idx_main_v20 (idx_main_v21 (ix4 b h i j)) = ix3 b h i :=
    funext fun a => Fin.ext (by match a with | ⟨0, _⟩ => rfl | ⟨1, _⟩ => rfl | ⟨2, _⟩ => rfl)
  rw [val_main_v22_apply, val_main_v21_apply, val_main_v20_apply, e, v19_apply, v18_apply]
  rfl

/-! ## The output -/

theorem v23_apply (b : Fin 4) (h : Fin 16) (i : Fin 1024) (d : Fin 64) :
    val_main_v23 (F := Ideal) x0 x1 x2 x3 x5 (ix4 b h i d) = outp (refScores x0 x1 x3 x5 b h) (headRows x2 b h) i d := by
  have e1 : ∀ k : Fin 1024, lidx_main_v23 (ix4 b h i d) k = ix4 b h i k := fun k =>
    funext fun a => Fin.ext (by match a with | ⟨0, _⟩ => rfl | ⟨1, _⟩ => rfl | ⟨2, _⟩ => rfl | ⟨3, _⟩ => rfl)
  have e2 : ∀ k : Fin 1024, ridx_main_v23 (ix4 b h i d) k = ix4 b h k d := fun k =>
    funext fun a => Fin.ext (by match a with | ⟨0, _⟩ => rfl | ⟨1, _⟩ => rfl | ⟨2, _⟩ => rfl | ⟨3, _⟩ => rfl)
  rw [val_main_v23_apply]
  unfold outp headRows
  refine Finset.sum_congr rfl fun k _ => ?_
  rw [e1, e2, v22_apply]

/-! ## On positive real propensities the reference's scores are the kernel's -/

theorem refScores_eq (hp : ∀ (b : Fin 4) (j : Fin 1024), 0 < x3 (ix2 b j) ∧ x3 (ix2 b j) < ⊤) (b : Fin 4) (h : Fin 16) :
    refScores x0 x1 x3 x5 b h = headScores x0 x1 x3 x5 b h := by
  unfold refScores headScores
  have e := refLogit_eq_kerLogit (headRows x0 b h) (headRows x1 b h) (propRow x3 b) (fun j => hp b j)
  rw [e]

/-- THE WEIGHTS: the reference's second result is the specification's `weights`. -/
theorem weights_eq (hp : ∀ (b : Fin 4) (j : Fin 1024), 0 < x3 (ix2 b j) ∧ x3 (ix2 b j) < ⊤) :
    val_main_v22 (F := Ideal) x0 x1 x3 x5 = weights x0 x1 x3 x5 := by
  funext y
  obtain ⟨b, h, i, j, rfl⟩ : ∃ (b : Fin 4) (h : Fin 16) (i j : Fin 1024), y = ix4 b h i j := ⟨y 0, y 1, y 2, y 3, eq_ix4 y⟩
  rw [v22_apply, weights_ix, refScores_eq x0 x1 x3 x5 hp]

/-- THE OUTPUT: the reference's first result is the specification's `output`. -/
theorem output_eq (hp : ∀ (b : Fin 4) (j : Fin 1024), 0 < x3 (ix2 b j) ∧ x3 (ix2 b j) < ⊤) :
    val_main_v23 (F := Ideal) x0 x1 x2 x3 x5 = output x0 x1 x2 x3 x5 := by
  funext y
  obtain ⟨b, h, i, d, rfl⟩ : ∃ (b : Fin 4) (h : Fin 16) (i : Fin 1024) (d : Fin 64), y = ix4 b h i d := ⟨y 0, y 1, y 2, y 3, eq_ix4 y⟩
  rw [v23_apply, output_ix, refScores_eq x0 x1 x3 x5 hp]

end Cert.ReferenceIdeal.RefValue

end
-- ==== Proof.PreDecode.lean ====
/- The precondition, read back: where it holds, every propensity is a positive real number.

   The printed predicate is a conjunction of `all`-reductions, one per conjunct of its source. Two of them speak of the
   propensities `T`: `all (|T| < +inf)` and `all (T > 0)`. A conjunction of one-bit words that is 1 has every word 1, an
   `all`-reduction that is 1 has every element 1, and a comparison's word is 1 exactly when the comparison holds; so at every
   index `T < ⊤` (because `T ≤ max T (-T) < ⊤`) and `0 < T`. -/
import proofs.«106895_j66872640799274_2_alg».proof.Pre_finite_inputs
import proofs.«106895_j66872640799274_2_alg».proof.Proof.Gen.Pre_finite_inputs
import proofs.«106895_j66872640799274_2_alg».proof.Proof.Consts
import Idealize.ShloMosaic.PureOps.Ideal.Laws
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- A decided proposition's word is 1 only if the proposition holds. -/
theorem of_ofBool_decide (p : Prop) [Decidable p] (h : BitVec.ofBool (decide p) = 1#1) : p := by
  by_cases hp : p
  · exact hp
  · rw [decide_eq_false hp] at h
    exact absurd h (by decide)

/-- Where the precondition holds, every propensity is positive and below `+inf`. -/
theorem prop_pos (a0 a1 a2 : FVec Ideal S4x16x1024x64 .f32) (a3 a4 : FVec Ideal S4x1024 .f32) (a5 : IVec S4x1x1024x1024 32)
    (h : fn (F := Ideal) a0 a1 a2 a3 a4 a5 = fun _ => 1#1) (b : Fin 4) (j : Fin 1024) :
    0 < a3 (ix2 b j) ∧ a3 (ix2 b j) < ⊤ := by
  have h0 := congrFun h ix0
  dsimp only [fn, fn_part1] at h0
  obtain ⟨h1, h26⟩ := IntOp.andi_eq_one.1 h0
  obtain ⟨h2, h22⟩ := IntOp.andi_eq_one.1 h1
  obtain ⟨h3, h17⟩ := IntOp.andi_eq_one.1 h2
  have hfin := Host.reduce_andi_all _ _ _ _ ix0 h17 (ix2 b j)
  have hpos := Host.reduce_andi_all _ _ _ _ ix0 h26 (ix2 b j)
  constructor
  · have hp : Ideal.cmp .ogt (a3 (ix2 b j)) (Ideal.ofBits .f32 0x00000000#32) = 1#1 := hpos
    rw [Consts.ofBits_zero] at hp
    exact of_ofBool_decide _ hp
  · have hf : Ideal.cmp .olt (max (a3 (ix2 b j)) (-(a3 (ix2 b j)))) (Ideal.ofBits .f32 0x7F800000#32) = 1#1 := hfin
    rw [Consts.ofBits_pos_inf] at hf
    exact lt_of_le_of_lt (le_max_left _ _) (of_ofBool_decide _ hf)

end Cert.Pre_finite_inputs.Decode

end
-- ==== Proof.lean ====
/- The certificate of a masked, propensity-debiased softmax attention kernel against its jnp reference, at the extended reals.

   Both programs compute, for each batch entry `b` and head `h`, the attention weights `softmax_j (S i j)` and the output
   `sum_j weights i j * v j d` of the masked logits `S i j` (the literal -1e9 where the mask word is zero). They differ in how
   the logit is scaled. The kernel multiplies the dot product `q_i · k_j` by a per-column factor `0.125 * (1 / T_j ^ 0.1)` that
   the host computes once from the propensities `T`; the reference divides it by `sqrt 64` and then by `T_j ^ 0.1`. Under the
   precondition — finite inputs and positive propensities — `T_j ^ 0.1` is a nonzero real, and both scalings are the product
   with `1/8` and with its reciprocal (Proof/Softmax.lean). Everything after the logits is the same function on both sides:
   the row maximum (a fold of `max`; the reference's extra `max` with `-inf` changes nothing), the exponentials, their row
   sums (a row reduction and a host sum are both the plain sum), the quotient, and the contraction with the value rows (a
   matrix product into a zero accumulator and a host `dot_general` are both the plain sum).

   Proof/KernelValue.lean reads the kernel's run: each of the 64 grid points writes one head's blocks, which tile the two
   result arrays. Proof/RefValue.lean reads the reference's run stage by stage. Proof/PreDecode.lean reads the precondition.
   The frames are the generated ones; the idealization rewrote nothing, so `preserves` is `True`. -/
import proofs.«106895_j66872640799274_2_alg».proof.Defs
import proofs.«106895_j66872640799274_2_alg».proof.Proof.Gen.Kernel
import proofs.«106895_j66872640799274_2_alg».proof.Proof.Gen.Kernel.Frame
import proofs.«106895_j66872640799274_2_alg».proof.Proof.Gen.KernelIdeal
import proofs.«106895_j66872640799274_2_alg».proof.Proof.Gen.KernelIdeal.Frame
import proofs.«106895_j66872640799274_2_alg».proof.Proof.Gen.KernelIdeal.Value
import proofs.«106895_j66872640799274_2_alg».proof.Proof.Gen.ReferenceIdeal
import proofs.«106895_j66872640799274_2_alg».proof.Proof.Gen.ReferenceIdeal.Run
import proofs.«106895_j66872640799274_2_alg».proof.Proof.Gen.ReferenceIdeal.Read
import proofs.«106895_j66872640799274_2_alg».proof.Proof.Gen.Pre_finite_inputs
import proofs.«106895_j66872640799274_2_alg».proof.Proof.KernelValue
import proofs.«106895_j66872640799274_2_alg».proof.Proof.RefValue
import proofs.«106895_j66872640799274_2_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, under the precondition, both programs end with the specification's `output`
    and `weights` of the kernel's arguments: the kernel by its run read block by block, the reference by its run read stage
    by stage and, the propensities being positive reals, by the scaling law. -/
theorem algebraic : Cert.algebraic_KernelIdeal_ReferenceIdeal := by
  intro m ρ m' ρ' hpre hagree
  refine ⟨fun c => Cert.KernelIdeal.Hand.O m c, fun c => Cert.KernelIdeal.Hand.W m c, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  have hp := fun (b : Fin 4) (j : Fin 1024) => Cert.Pre_finite_inputs.Decode.prop_pos _ _ _ _ _ _ (hpre c) b j
  refine ⟨(h c).1.trans ?_, (h c).2.1.trans ?_, (h c).2.2⟩
  · rw [Cert.ReferenceIdeal.Read.val_main_v23_eq, a0, a1, a2, a3, a5]
    exact Cert.ReferenceIdeal.RefValue.output_eq _ _ _ _ _ hp
  · rw [Cert.ReferenceIdeal.Read.val_main_v22_eq, a0, a1, a3, a5]
    exact Cert.ReferenceIdeal.RefValue.weights_eq _ _ _ _ hp

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
